-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S1x256x1x1 : Shape := ⟨4, ![1, 256, 1, 1]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn_part1 {F : FTy → Type} [FloatOps F] (main_v13 : IVec S_ 1) (main_v16 : IVec S1x256x1x1 1) : IVec S_ 1 :=
  let main_c_5 : IVec S_ 1 := constantI S_ 1 1#1
  let main_v17 : IVec S_ 1 := (fun x v => Host.reduce IntOp.andi x v reducesTo_S1x256x1x1_S_d0_1_2_3 h_S_) main_v16 main_c_5
  let main_v18 : IVec S_ 1 := andi main_v13 main_v17
  main_v18

def fn {F : FTy → Type} [FloatOps F] (main_arg0 : FVec F S32x256x64x64 .f32) (main_arg1 : FVec F S1x256x1x1 .f32) (main_arg2 : FVec F S1x256x1x1 .f32) (main_arg3 : FVec F S1x256x1x1 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  let main_v14 : FVec F S1x256x1x1 .f32 := Host.absf main_arg3
  let main_cst_4 : FVec F S_ .f32 := constant S_ .f32 0x7F800000#32
  let main_v15 : FVec F S1x256x1x1 .f32 := broadcastInDim S1x256x1x1 ![] bcast_S_S1x256x1x1 main_cst_4
  let main_v16 : IVec S1x256x1x1 1 := cmpf .olt main_v14 main_v15
  fn_part1 (F := F) main_v13 main_v16
-- ==== Kernel.lean ====
abbrev S32x256x64x64 : Shape := ⟨4, ![32, 256, 64, 64]⟩
abbrev S1x256x1x1 : Shape := ⟨4, ![1, 256, 1, 1]⟩
abbrev S32x256x4096 : Shape := ⟨3, ![32, 256, 4096]⟩
abbrev S1x256x1 : Shape := ⟨3, ![1, 256, 1]⟩
abbrev S1x256x4096 : Shape := ⟨3, ![1, 256, 4096]⟩
abbrev S1x256 : Shape := ⟨2, ![1, 256]⟩
abbrev S1x1 : Shape := ⟨2, ![1, 1]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x256x64x64, .f32⟩
  | .hbm, ⟨1, _⟩ => ⟨S1x256x1x1, .f32⟩
  | .hbm, ⟨2, _⟩ => ⟨S1x256x1x1, .f32⟩
  | .hbm, ⟨3, _⟩ => ⟨S1x256x1x1, .f32⟩
  | .hbm, ⟨4, _⟩ => ⟨S32x256x4096, .f32⟩
  | .hbm, ⟨5, _⟩ => ⟨S1x256x1, .f32⟩
  | .hbm, ⟨6, _⟩ => ⟨S1x256x1, .f32⟩
  | .hbm, ⟨7, _⟩ => ⟨S1x256x1, .f32⟩
  | .hbm, ⟨8, _⟩ => ⟨S32x256x4096, .f32⟩
  | .hbm, ⟨9, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x4096, .f32⟩
  | .local _ .vmem, ⟨6, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x64x64_S32x256x4096 : S32x256x64x64.ShapeCasts S32x256x4096
  shapeCasts_S1x256x1x1_S1x256x1 : S1x256x1x1.ShapeCasts S1x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S1x256x4096 : S1x256x4096.ShapeCasts S1x256x4096
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  reduces_S1x256x4096_S1x256 : S1x256x4096.Reduces [2] S1x256
  shapeCasts_S1x256_S1x256x1 : S1x256.ShapeCasts S1x256x1
  reduces_S1x256x1_S1x1 : S1x256x1.Reduces [1] S1x1
  shapeCasts_S1x1_S1x1x1 : S1x1.ShapeCasts S1x1x1
  broadcasts_S1x1x1_S1x256x1 : S1x1x1.Broadcasts S1x256x1
  broadcasts_S1x256x1_S1x256x4096 : S1x256x1.Broadcasts S1x256x4096
  shapeCasts_S32x256x4096_S32x256x64x64 : S32x256x4096.ShapeCasts S32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S1x256x1.size a
  hwx0_1 : ∀ i : grid0.Coords, EltTy.bits .f32 = 32 ∨ (Rect.block (s := S1x256x1) S1x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x256x1.size a
  hwx0_2 : ∀ i : grid0.Coords, EltTy.bits .f32 = 32 ∨ (Rect.block (s := S1x256x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S1x256x1.size a
  hwx0_3 : ∀ i : grid0.Coords, EltTy.bits .f32 = 32 ∨ (Rect.block (s := S1x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S32x256x4096.size a
  hwx0_4 : ∀ i : grid0.Coords, EltTy.bits .f32 = 32 ∨ (Rect.block (s := S32x256x4096) S1x256x4096.size (cc0_transform_4 i) (hinb0_4 i)).WholeWords (EltTy.packing .f32)

variable [Facts₀]

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S1x256x1x1 : Shape := ⟨4, ![1, 256, 1, 1]⟩
abbrev S_ : Shape := ⟨0, ![]⟩
abbrev S32x256 : Shape := ⟨2, ![32, 256]⟩
abbrev S32x256x1x1 : Shape := ⟨4, ![32, 256, 1, 1]⟩
abbrev S32 : Shape := ⟨1, ![32]⟩
abbrev S32x1x1x1 : Shape := ⟨4, ![32, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S1x256x1x1, .f32⟩
  | .hbm, ⟨2, _⟩ => ⟨S1x256x1x1, .f32⟩
  | .hbm, ⟨3, _⟩ => ⟨S1x256x1x1, .f32⟩
  | .hbm, ⟨4, _⟩ => ⟨S_, .f32⟩
  | .hbm, ⟨5, _⟩ => ⟨S32x256, .f32⟩
  | .hbm, ⟨6, _⟩ => ⟨S32x256x1x1, .f32⟩
  | .hbm, ⟨7, _⟩ => ⟨S_, .f32⟩
  | .hbm, ⟨8, _⟩ => ⟨S32x256x1x1, .f32⟩
  | .hbm, ⟨9, _⟩ => ⟨S32x256x1x1, .f32⟩
  | .hbm, ⟨10, _⟩ => ⟨S32x256x64x64, .f32⟩
  | .hbm, ⟨11, _⟩ => ⟨S32x256x64x64, .f32⟩
  | .hbm, ⟨12, _⟩ => ⟨S32x256x64x64, .f32⟩
  | .hbm, ⟨13, _⟩ => ⟨S_, .f32⟩
  | .hbm, ⟨14, _⟩ => ⟨S32x256, .f32⟩
  | .hbm, ⟨15, _⟩ => ⟨S32x256x1x1, .f32⟩
  | .hbm, ⟨16, _⟩ => ⟨S_, .f32⟩
  | .hbm, ⟨17, _⟩ => ⟨S32x256x1x1, .f32⟩
  | .hbm, ⟨18, _⟩ => ⟨S32x256x1x1, .f32⟩
  | .hbm, ⟨19, _⟩ => ⟨S32x256x64x64, .f32⟩
  | .hbm, ⟨20, _⟩ => ⟨S32x256x64x64, .f32⟩
  | .hbm, ⟨21, _⟩ => ⟨S_, .f32⟩
  | .hbm, ⟨22, _⟩ => ⟨S32x256x1x1, .f32⟩
  | .hbm, ⟨23, _⟩ => ⟨S32x256x1x1, .f32⟩
  | .hbm, ⟨24, _⟩ => ⟨S32x256x1x1, .f32⟩
  | .hbm, ⟨25, _⟩ => ⟨S32x256x64x64, .f32⟩
  | .hbm, ⟨26, _⟩ => ⟨S32x256x64x64, .f32⟩
  | .hbm, ⟨27, _⟩ => ⟨S_, .f32⟩
  | .hbm, ⟨28, _⟩ => ⟨S32, .f32⟩
  | .hbm, ⟨29, _⟩ => ⟨S32x1x1x1, .f32⟩
  | .hbm, ⟨30, _⟩ => ⟨S_, .f32⟩
  | .hbm, ⟨31, _⟩ => ⟨S32x1x1x1, .f32⟩
  | .hbm, ⟨32, _⟩ => ⟨S32x1x1x1, .f32⟩
  | .hbm, ⟨33, _⟩ => ⟨S32x256x64x64, .f32⟩
  | .hbm, ⟨34, _⟩ => ⟨S32x256x64x64, .f32⟩
  | .hbm, ⟨35, _⟩ => ⟨S32x256x64x64, .f32⟩
  | .hbm, ⟨36, _⟩ => ⟨S_, .f32⟩
  | .hbm, ⟨37, _⟩ => ⟨S32, .f32⟩
  | .hbm, ⟨38, _⟩ => ⟨S32x1x1x1, .f32⟩
  | .hbm, ⟨39, _⟩ => ⟨S_, .f32⟩
  | .hbm, ⟨40, _⟩ => ⟨S32x1x1x1, .f32⟩
  | .hbm, ⟨41, _⟩ => ⟨S32x1x1x1, .f32⟩
  | .hbm, ⟨42, _⟩ => ⟨S32x256x64x64, .f32⟩
  | .hbm, ⟨43, _⟩ => ⟨S32x256x64x64, .f32⟩
  | .hbm, ⟨44, _⟩ => ⟨S_, .f32⟩
  | .hbm, ⟨45, _⟩ => ⟨S32x1x1x1, .f32⟩
  | .hbm, ⟨46, _⟩ => ⟨S32x1x1x1, .f32⟩
  | .hbm, ⟨47, _⟩ => ⟨S32x1x1x1, .f32⟩
  | .hbm, ⟨48, _⟩ => ⟨S32x256x64x64, .f32⟩
  | .hbm, ⟨49, _⟩ => ⟨S32x256x64x64, .f32⟩
  | .hbm, ⟨50, _⟩ => ⟨S32x256x64x64, .f32⟩
  | .hbm, ⟨51, _⟩ => ⟨S32x256x64x64, .f32⟩
  | .hbm, ⟨52, _⟩ => ⟨S_, .f32⟩
  | .hbm, ⟨53, _⟩ => ⟨S1x256x1x1, .f32⟩
  | .hbm, ⟨54, _⟩ => ⟨S1x256x1x1, .f32⟩
  | .hbm, ⟨55, _⟩ => ⟨S32x256x64x64, .f32⟩
  | .hbm, ⟨56, _⟩ => ⟨S32x256x64x64, .f32⟩
  | .hbm, ⟨57, _⟩ => ⟨S32x256x64x64, .f32⟩
  | .hbm, ⟨58, _⟩ => ⟨S32x256x64x64, .f32⟩
  | .hbm, ⟨59, _⟩ => ⟨S32x256x64x64, .f32⟩
  | .hbm, ⟨60, _⟩ => ⟨S32x256x64x64, .f32⟩
  | .hbm, ⟨61, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S32x256_S32x256x1x1_0_1 : S32x256.BroadcastsInDim S32x256x1x1 (![0, 1] : Fin 2 → Fin S32x256x1x1.rank)
  bcast_S_S32x256x1x1 : S_.BroadcastsInDim S32x256x1x1 (![] : Fin 0 → Fin S32x256x1x1.rank)
  bcast_S32x256x1x1_S32x256x64x64_0_1_2_3 : S32x256x1x1.BroadcastsInDim S32x256x64x64 (![0, 1, 2, 3] : Fin 4 → Fin S32x256x64x64.rank)
  reducesTo_S32x256x64x64_S32_d1_2_3 : S32x256x64x64.ReducesTo [1, 2, 3] S32
  bcast_S32_S32x1x1x1_0 : S32.BroadcastsInDim S32x1x1x1 (![0] : Fin 1 → Fin S32x1x1x1.rank)
  bcast_S_S32x1x1x1 : S_.BroadcastsInDim S32x1x1x1 (![] : Fin 0 → Fin S32x1x1x1.rank)
  bcast_S32x1x1x1_S32x256x64x64_0_1_2_3 : S32x1x1x1.BroadcastsInDim S32x256x64x64 (![0, 1, 2, 3] : Fin 4 → Fin S32x256x64x64.rank)
  bcast_S1x256x1x1_S32x256x64x64_0_1_2_3 : S1x256x1x1.BroadcastsInDim S32x256x64x64 (![0, 1, 2, 3] : Fin 4 → Fin S32x256x64x64.rank)
  bcast_S_S1x256x1x1 : S_.BroadcastsInDim S1x256x1x1 (![] : Fin 0 → Fin S1x256x1x1.rank)

variable [Facts₀]

class Facts : Prop extends Facts₀ where

variable [Facts]
-- ==== Proof.MomentsDef.lean ====
/-
  Instance-and-layer normalisation of ONE sample, as two functions of the sample's data on the extended reals.

  A sample is `x : ι → κ → EReal` (channel `c : ι`, position `k : κ`), with per-channel parameters `ρ γ β : ι → EReal`.
  Both functions blend the instance-normalised and the layer-normalised sample,
      out c k = ((x c k - μ c) · r c · ρ c + (x c k - M) · R · (1 - ρ c)) · γ c + β c,
  where μ c, r c are channel `c`'s mean and reciprocal standard deviation over the positions and M, R the sample's over
  channels and positions together; they differ in how the moments are computed and in how the blend is arranged.

  * `fused` takes each variance in ONE pass, as the mean of the squares less the square of the mean, clamped below at
    zero; takes the sample's two moments as the means over the channels of the channels' moments; and evaluates the blend
    as `x · A c + B c` with `A c = γ c · (ρ c · r c + (1 - ρ c) · R)` and
    `B c = β c - γ c · (ρ c · μ c · r c + (1 - ρ c) · M · R)`.
  * `blended` takes each variance in TWO passes, as the mean of the squared deviations from the mean, the sample's moments
    over all channels and positions at once, every sum started from an initial value, and evaluates the blend as written
    above.

  The divisors, the stabiliser added under each root, the one and the zeros are parameters (extended reals), and the
  association of every product and sum is fixed, so that each function can be matched term for term. That the two agree
  on real data is Proof/MomentsLaw.lean.
-/
import Idealize.ShloMosaic.PureOps.Ideal

noncomputable section

open scoped BigOperators

namespace Cert.Moments

open Idealize.ShloMosaic

variable {ι κ : Type} [Fintype ι] [Fintype κ]

/-! ## One pass: moments of the channels, then of the sample from them -/

/-- Channel `c`'s mean over the positions: the sum divided by `nK`. -/
def chMean (nK : EReal) (x : ι → κ → EReal) (c : ι) : EReal :=
  Ideal.div (∑ k, x c k) nK

/-- Channel `c`'s mean square over the positions. -/
def chMeanSq (nK : EReal) (x : ι → κ → EReal) (c : ι) : EReal :=
  Ideal.div (∑ k, x c k * x c k) nK

/-- Channel `c`'s reciprocal standard deviation from the one-pass variance, clamped at `zero` from below. -/
def chRstd (nK eps zero : EReal) (x : ι → κ → EReal) (c : ι) : EReal :=
  Ideal.rsqrt (max (chMeanSq nK x c - chMean nK x c * chMean nK x c) zero + eps)

/-- The sample's mean, as the mean over the channels of the channels' means. -/
def lyMean (nK nC : EReal) (x : ι → κ → EReal) : EReal :=
  Ideal.div (∑ c, chMean nK x c) nC

/-- The sample's mean square, as the mean over the channels of the channels' mean squares. -/
def lyMeanSq (nK nC : EReal) (x : ι → κ → EReal) : EReal :=
  Ideal.div (∑ c, chMeanSq nK x c) nC

/-- The sample's reciprocal standard deviation from the one-pass variance, clamped at `zero` from below. -/
def lyRstd (nK nC eps zero : EReal) (x : ι → κ → EReal) : EReal :=
  Ideal.rsqrt (max (lyMeanSq nK nC x - lyMean nK nC x * lyMean nK nC x) zero + eps)

/-- The blend as one multiply-add `x · A c + B c`. -/
def fused (nK nC eps one zero : EReal) (x : ι → κ → EReal) (ρ γ β : ι → EReal) (c : ι) (k : κ) : EReal :=
  x c k * (γ c * (ρ c * chRstd nK eps zero x c + (one - ρ c) * lyRstd nK nC eps zero x))
    + (β c - γ c * (ρ c * chMean nK x c * chRstd nK eps zero x c
        + (one - ρ c) * lyMean nK nC x * lyRstd nK nC eps zero x))

/-! ## Two passes: each variance as the mean squared deviation -/

/-- Channel `c`'s mean: the sum from `zero`, divided by `nK`. -/
def rMean (zero nK : EReal) (x : ι → κ → EReal) (c : ι) : EReal :=
  Ideal.div (zero + ∑ k, x c k) nK

/-- Channel `c`'s variance: the mean of the squared deviations from its mean. -/
def rVar (zero nK : EReal) (x : ι → κ → EReal) (c : ι) : EReal :=
  Ideal.div (zero + ∑ k, (x c k - rMean zero nK x c) * (x c k - rMean zero nK x c)) nK

/-- The sample's mean over channels and positions together, divided by `nN`. -/
def rLMean (zero nN : EReal) (x : ι → κ → EReal) : EReal :=
  Ideal.div (zero + ∑ c, ∑ k, x c k) nN

/-- The sample's variance: the mean of the squared deviations from its mean. -/
def rLVar (zero nN : EReal) (x : ι → κ → EReal) : EReal :=
  Ideal.div (zero + ∑ c, ∑ k, (x c k - rLMean zero nN x) * (x c k - rLMean zero nN x)) nN

/-- The blend as written: the two normalised samples weighted by `ρ` and `one - ρ`, scaled and shifted. -/
def blended (zero nK nN eps one : EReal) (x : ι → κ → EReal) (ρ γ β : ι → EReal) (c : ι) (k : κ) : EReal :=
  ((x c k - rMean zero nK x c) * Ideal.rsqrt (rVar zero nK x c + eps) * ρ c
      + (x c k - rLMean zero nN x) * Ideal.rsqrt (rLVar zero nN x + eps) * (one - ρ c)) * γ c + β c

end Cert.Moments

end
-- ==== Proof.Consts.lean ====
/-
  The five f32 words both programs spell, and the extended reals they denote: the number of positions of a channel
  (4096), the number of channels (256), their product (2^20, the number of entries of a sample), one, zero, and the
  stabiliser added under each root, which is the f32 nearest 1e-8: 11258999 · 2^-50, a positive real. Both programs
  spell the stabiliser by the same word, so only its positivity is ever used.
-/
import Idealize.ShloMosaic.PureOps.Ideal

noncomputable section

namespace Cert.Consts

open Idealize.ShloMosaic

/-- `4096.0`. -/
abbrev w4096 : EReal := Ideal.ofBits .f32 0x45800000#32
/-- `256.0`. -/
abbrev w256 : EReal := Ideal.ofBits .f32 0x43800000#32
/-- `1048576.0`. -/
abbrev w2p20 : EReal := Ideal.ofBits .f32 0x49800000#32
/-- `1.0`. -/
abbrev wOne : EReal := Ideal.ofBits .f32 0x3F800000#32
/-- `0.0`. -/
abbrev wZero : EReal := Ideal.ofBits .f32 0x00000000#32
/-- The stabiliser. -/
abbrev wEps : EReal := Ideal.ofBits .f32 0x322BCC77#32

theorem w4096_eq : w4096 = ((4096 : ℝ) : EReal) := by
  simp [w4096, Ideal.ofBits, Ideal.ieee, -EReal.coe_mul]; norm_num

theorem w256_eq : w256 = ((256 : ℝ) : EReal) := by
  simp [w256, Ideal.ofBits, Ideal.ieee, -EReal.coe_mul]; norm_num

theorem w2p20_eq : w2p20 = ((256 * 4096 : ℝ) : EReal) := by
  simp [w2p20, Ideal.ofBits, Ideal.ieee, -EReal.coe_mul]; norm_num

theorem wOne_eq : wOne = 1 := by
  simp [wOne, Ideal.ofBits, Ideal.ieee, -EReal.coe_mul]; norm_num

theorem wZero_eq : wZero = 0 := by
  simp [wZero, Ideal.ofBits, Ideal.ieee]

/-- The stabiliser is a positive real. -/
theorem wEps_pos : ∃ e : ℝ, 0 < e ∧ wEps = (e : EReal) := by
  refine ⟨11258999 * (2 : ℝ) ^ (-50 : ℤ), by positivity, ?_⟩
  simp [wEps, Ideal.ofBits, Ideal.ieee, -EReal.coe_mul]

end Cert.Consts

end
-- ==== Proof.KernelPoint.lean ====
/-
  The kernel body's arithmetic read at one element.

  A block is one sample: `x0 : [1, 256, 4096]` (channel `c`, position `k`) and the three parameter columns
  `[1, 256, 1]`. The body sums each channel's row and the row of squares over the 4096 positions (a reduction over the
  last axis, kept as a `[1, 256, 1]` column), divides by 4096, sums those two columns over the 256 channels (a reduction
  over the middle axis, kept as `[1, 1, 1]`), divides by 256, and spreads the resulting scalars back over the channels
  and the per-channel coefficients back over the positions. Read at `(0, c, k)` the stored value is `Moments.fused` of
  the block's entries.
-/
import proofs.«153214_j1580547973998_2_alg».proof.Proof.Gen.KernelIdeal.Skeleton
import proofs.«153214_j1580547973998_2_alg».proof.Proof.MomentsDef
import proofs.«153214_j1580547973998_2_alg».proof.Proof.Consts
import Idealize.ShloMosaic.Lib.ValueIdx
import Idealize.ShloMosaic.Lib.Pipeline.Value
import Idealize.ShloMosaic.PureOps.Ideal.Laws

noncomputable section

open scoped BigOperators

namespace Cert.KernelIdeal.Point

open Idealize.ShloMosaic Idealize.ShloMosaic.ValueIdx Cert.KernelIdeal Cert.KernelIdeal.Gen Cert.Consts

/-! ## The two kept reductions and the two spreads, at literal coordinates -/

/-- The sum over the positions, kept as a column: at channel `c` it is the sum of the channel's row. -/
theorem rowSum_keep (v : FVec Ideal S1x256x4096 .f32) (hφ : FKind.Formats .f32)
    (hacc : (0x00000000#32 : BitVec 32) = FKind.add.neutral .f32 hφ) (c : Fin 256) :
    shapeCast S1x256x1 (multiReduction .add [2] S1x256 v 0x00000000#32 reduces_S1x256x4096_S1x256 hφ hacc)
        shapeCasts_S1x256_S1x256x1 (ix3 (0 : Fin 1) c (0 : Fin 1))
      = ∑ k : Fin 4096, v (ix3 (0 : Fin 1) c k) := by
  refine (shapeCast_apply _ _ (ix3 (0 : Fin 1) c (0 : Fin 1)) (ix2 (0 : Fin 1) c) ?_).trans ?_
  · rw [Shape.rowMajor_val_two, Shape.rowMajor_val_three]
    show (0 : Nat) * 256 + c.val = ((0 : Nat) * 256 + c.val) * 1 + 0
    omega
  · refine (Ideal.multiReduction_add_single v _ reduces_S1x256x4096_S1x256 hφ hacc (ix2 (0 : Fin 1) c)).trans ?_
    exact Finset.sum_congr rfl fun k _ => congrArg v (funext fun a => Fin.ext (by
      match a with | ⟨0, _⟩ => rfl | ⟨1, _⟩ => rfl | ⟨2, _⟩ => rfl))

/-- The sum over the channels of a column, kept as a scalar block: the sum of the column's entries. -/
theorem colSum_keep (v : FVec Ideal S1x256x1 .f32) (hφ : FKind.Formats .f32)
    (hacc : (0x00000000#32 : BitVec 32) = FKind.add.neutral .f32 hφ) :
    shapeCast S1x1x1 (multiReduction .add [1] S1x1 v 0x00000000#32 reduces_S1x256x1_S1x1 hφ hacc)
        shapeCasts_S1x1_S1x1x1 (ix3 (0 : Fin 1) (0 : Fin 1) (0 : Fin 1))
      = ∑ c : Fin 256, v (ix3 (0 : Fin 1) c (0 : Fin 1)) := by
  refine (shapeCast_apply _ _ (ix3 (0 : Fin 1) (0 : Fin 1) (0 : Fin 1)) (ix2 (0 : Fin 1) (0 : Fin 1)) ?_).trans ?_
  · rw [Shape.rowMajor_val_two, Shape.rowMajor_val_three]
    show (0 : Nat) * 1 + 0 = ((0 : Nat) * 1 + 0) * 1 + 0
    omega
  · refine (Ideal.multiReduction_add_single v _ reduces_S1x256x1_S1x1 hφ hacc (ix2 (0 : Fin 1) (0 : Fin 1))).trans ?_
    exact Finset.sum_congr rfl fun k _ => congrArg v (funext fun a => Fin.ext (by
      match a with | ⟨0, _⟩ => rfl | ⟨1, _⟩ => rfl | ⟨2, _⟩ => rfl))

/-- A scalar block spread over the channels reads its one entry everywhere. -/
theorem spread_scalar (v : FVec Ideal S1x1x1 .f32) (c : Fin 256) :
    broadcastTo S1x256x1 v broadcasts_S1x1x1_S1x256x1 (ix3 (0 : Fin 1) c (0 : Fin 1))
      = v (ix3 (0 : Fin 1) (0 : Fin 1) (0 : Fin 1)) :=
  broadcastTo_apply v _ _ _ fun a => by
    match a with | ⟨0, _⟩ => rfl | ⟨1, _⟩ => rfl | ⟨2, _⟩ => rfl

/-- A column spread over the positions reads channel `c`'s entry at every position of channel `c`. -/
theorem spread_column (v : FVec Ideal S1x256x1 .f32) (c : Fin 256) (k : Fin 4096) :
    broadcastTo S1x256x4096 v broadcasts_S1x256x1_S1x256x4096 (ix3 (0 : Fin 1) c k)
      = v (ix3 (0 : Fin 1) c (0 : Fin 1)) :=
  broadcastTo_apply v _ _ _ fun a => by
    match a with | ⟨0, _⟩ => rfl | ⟨1, _⟩ => rfl | ⟨2, _⟩ => rfl

/-! ## The payloads at an element -/

/-- A block's entries by channel and position. -/
abbrev rows (v0 : FVec Ideal S1x256x4096 .f32) : Fin 256 → Fin 4096 → EReal := fun c k => v0 (ix3 (0 : Fin 1) c k)
/-- A column's entries by channel. -/
abbrev col (v : FVec Ideal S1x256x1 .f32) : Fin 256 → EReal := fun c => v (ix3 (0 : Fin 1) c (0 : Fin 1))
/-- A scalar block's one entry. -/
abbrev the (v : FVec Ideal S1x1x1 .f32) : EReal := v (ix3 (0 : Fin 1) (0 : Fin 1) (0 : Fin 1))

theorem rsqrt_apply {s : Shape} (a : FVec Ideal s .f32) (i : s.Idx) : rsqrt a i = Ideal.rsqrt (a i) := rfl

/-- The loaded block, cast to its own shape, is the block. -/
theorem pay2_eq (v0 : FVec Ideal S1x256x4096 .f32) : k0_pay2 v0 = v0 := shapeCast_self v0 _

/-- The column of channel means. -/
theorem pay6_apply (v0 : FVec Ideal S1x256x4096 .f32) (c : Fin 256) :
    col (k0_pay6 v0) c = Moments.chMean w4096 (rows v0) c := by
  refine congrArg (fun s => Ideal.div s w4096) ((rowSum_keep (k0_pay2 v0) _ _ c).trans ?_)
  rw [pay2_eq]

/-- The column of channel mean squares. -/
theorem pay7_apply (v0 : FVec Ideal S1x256x4096 .f32) (c : Fin 256) :
    col (k0_pay7 v0) c = Moments.chMeanSq w4096 (rows v0) c := by
  refine congrArg (fun s => Ideal.div s w4096) ((rowSum_keep (mulf (k0_pay2 v0) (k0_pay2 v0)) _ _ c).trans ?_)
  rw [pay2_eq]; rfl

/-- The column of channel reciprocal standard deviations. -/
theorem pay8_apply (v0 : FVec Ideal S1x256x4096 .f32) (c : Fin 256) :
    col (k0_pay8 v0) c = Moments.chRstd w4096 wEps wZero (rows v0) c := by
  show Ideal.rsqrt (max (col (k0_pay7 v0) c - col (k0_pay6 v0) c * col (k0_pay6 v0) c) wZero + wEps) = _
  rw [pay6_apply, pay7_apply]; rfl

/-- The sample's mean. -/
theorem pay9_apply (v0 : FVec Ideal S1x256x4096 .f32) :
    the (k0_pay9 v0) = Moments.lyMean w4096 w256 (rows v0) := by
  refine congrArg (fun s => Ideal.div s w256) ((colSum_keep (k0_pay6 v0) _ _).trans ?_)
  exact Finset.sum_congr rfl fun c _ => pay6_apply v0 c

/-- The sample's mean square. -/
theorem meanSqAll_apply (v0 : FVec Ideal S1x256x4096 .f32) :
    Ideal.div (shapeCast S1x1x1 (multiReduction (F := Ideal) .add [1] S1x1 (k0_pay7 v0) 0x00000000#32 reduces_S1x256x1_S1x1 (.inl rfl) rfl)
        shapeCasts_S1x1_S1x1x1 (ix3 (0 : Fin 1) (0 : Fin 1) (0 : Fin 1))) w256
      = Moments.lyMeanSq w4096 w256 (rows v0) := by
  refine congrArg (fun s => Ideal.div s w256) ((colSum_keep (k0_pay7 v0) _ _).trans ?_)
  exact Finset.sum_congr rfl fun c _ => pay7_apply v0 c

/-- The sample's clamped one-pass variance. -/
theorem pay10_apply (v0 : FVec Ideal S1x256x4096 .f32) :
    the (k0_pay10 v0) = max (Moments.lyMeanSq w4096 w256 (rows v0)
      - Moments.lyMean w4096 w256 (rows v0) * Moments.lyMean w4096 w256 (rows v0)) wZero := by
  show max (Ideal.div (shapeCast S1x1x1 (multiReduction (F := Ideal) .add [1] S1x1 (k0_pay7 v0) 0x00000000#32 reduces_S1x256x1_S1x1 (.inl rfl) rfl)
        shapeCasts_S1x1_S1x1x1 (ix3 (0 : Fin 1) (0 : Fin 1) (0 : Fin 1))) w256
      - the (k0_pay9 v0) * the (k0_pay9 v0)) wZero = _
  rw [meanSqAll_apply, pay9_apply]

/-- The stored value at channel `c`, position `k`, from the values it reads: the multiply-add `x · A c + B c`. -/
theorem pay1_apply (v1 : FVec Ideal S1x256x4096 .f32) (v3 v5 v7 v11 v23 : FVec Ideal S1x256x1 .f32)
    (v27 v35 : FVec Ideal S1x1x1 .f32) (c : Fin 256) (k : Fin 4096) :
    k0_pay1 v1 v3 v5 v7 v11 v23 v27 v35 (ix3 (0 : Fin 1) c k)
      = rows v1 c k * (col v5 c * (col v3 c * col v23 c + (wOne - col v3 c) * Ideal.rsqrt (the v35 + wEps)))
        + (col v7 c - col v5 c * (col v3 c * col v11 c * col v23 c
            + (wOne - col v3 c) * the v27 * Ideal.rsqrt (the v35 + wEps))) := by
  unfold k0_pay1
  simp only [addf_apply, mulf_apply, subf_apply, broadcast_apply, rsqrt_apply, spread_column, spread_scalar]
  rfl

/-- The three parameter columns, cast to their own shape, are the columns. -/
theorem pay3_eq (v : FVec Ideal S1x256x1 .f32) : k0_pay3 v = v := shapeCast_self v _
theorem pay4_eq (v : FVec Ideal S1x256x1 .f32) : k0_pay4 v = v := shapeCast_self v _
theorem pay5_eq (v : FVec Ideal S1x256x1 .f32) : k0_pay5 v = v := shapeCast_self v _

/-- The stored block at channel `c`, position `k`, from the four loaded blocks: the one-pass blend of the sample. -/
theorem stored_apply (x0 : FVec Ideal S1x256x4096 .f32) (x1 x2 x3 : FVec Ideal S1x256x1 .f32) (c : Fin 256) (k : Fin 4096) :
    k0_pay1 (F := Ideal) (k0_pay2 x0) (k0_pay3 x1) (k0_pay4 x2) (k0_pay5 x3) (k0_pay6 x0) (k0_pay8 x0) (k0_pay9 x0) (k0_pay10 x0)
        (ix3 (0 : Fin 1) c k)
      = Moments.fused w4096 w256 wEps wOne wZero (rows x0) (col x1) (col x2) (col x3) c k := by
  rw [pay1_apply, pay2_eq, pay3_eq, pay4_eq, pay5_eq, pay6_apply, pay8_apply, pay9_apply, pay10_apply]
  rfl

/-- The same at any index of the block: its leading coordinate is zero. -/
theorem stored_at (x0 : FVec Ideal S1x256x4096 .f32) (x1 x2 x3 : FVec Ideal S1x256x1 .f32) (j : S1x256x4096.Idx) :
    k0_pay1 (F := Ideal) (k0_pay2 x0) (k0_pay3 x1) (k0_pay4 x2) (k0_pay5 x3) (k0_pay6 x0) (k0_pay8 x0) (k0_pay9 x0) (k0_pay10 x0) j
      = Moments.fused w4096 w256 wEps wOne wZero (rows x0) (col x1) (col x2) (col x3) (j 1) (j 2) := by
  have hj0 : (j 0).val < 1 := (j 0).isLt
  have hj : j = ix3 (0 : Fin 1) (j 1) (j 2) := by
    funext a
    match a with
    | ⟨0, _⟩ => exact Fin.ext (by show (j 0).val = 0; omega)
    | ⟨1, _⟩ => rfl
    | ⟨2, _⟩ => rfl
  exact (congrArg (k0_pay1 (F := Ideal) (k0_pay2 x0) (k0_pay3 x1) (k0_pay4 x2) (k0_pay5 x3) (k0_pay6 x0) (k0_pay8 x0) (k0_pay9 x0)
    (k0_pay10 x0)) hj).trans (stored_apply x0 x1 x2 x3 (j 1) (j 2))

end Cert.KernelIdeal.Point

end
-- ==== Proof.KernelArray.lean ====
/-
  From blocks to the whole result of the kernel's program.

  The region works on the input viewed as `[32, 256, 4096]` and the parameters viewed as `[1, 256, 1]`. Grid point `t`
  reads sample `t` (block `(t, 0, 0)` of the input), the whole of each parameter column, and writes back block
  `(t, 0, 0)` of the result: the one-pass blend of sample `t`. The 32 written blocks tile the result, so after the run
  the `[32, 256, 4096]` result is, at `(n, c, k)`, the blend of sample `n` at channel `c`, position `k`.
-/
import proofs.«153214_j1580547973998_2_alg».proof.Proof.Gen.KernelIdeal.Frame
import proofs.«153214_j1580547973998_2_alg».proof.Proof.KernelPoint
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Point Idealize.ShloMosaic Idealize.ShloMosaic.TcCoe Idealize.SL.Sem
open Idealize.ShloMosaic.ValueIdx Cert.Consts
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 32 points: the input's and the result's windows sit at block `(t, 0, 0)`,
    the three parameter windows at block `(0, 0, 0)`. -/
theorem idx_facts : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0 :=
  (by decide +kernel : ∀ t : Fin grid0.N, _)

/-! ## The input blocks, as entries of the arrays the region finds -/

/-- The input window's block at point `t` is sample `t`. -/
theorem iblk0_apply (c : Dev nD) (t : Fin cfg0.N) (x : S1x256x4096.Idx) (i : S32x256x4096.Idx)
    (h0 : (i 0).val = t.val) (h1 : (i 1).val = (x 1).val) (h2 : (i 2).val = (x 2).val) :
    (iblk m c 0 t : FVec Ideal S1x256x4096 .f32) x = (V m c main_v0 : S32x256x4096.Idx → EReal) i := by
  obtain ⟨e0, e1, e2, -⟩ := idx_facts t
  have hx0 : (x 0).val < 1 := (x 0).isLt
  unfold iblk
  rw [View.read_apply]
  show V m c main_v0 _ = V m c main_v0 _
  congr 1
  funext a
  apply Fin.ext
  match a with
  | ⟨0, _⟩ => show win0_0.index t (0 : Fin 3) * 1 + 1 * (x 0).val = (i 0).val; omega
  | ⟨1, _⟩ => show win0_0.index t (1 : Fin 3) * 256 + 1 * (x 1).val = (i 1).val; omega
  | ⟨2, _⟩ => show win0_0.index t (2 : Fin 3) * 4096 + 1 * (x 2).val = (i 2).val; omega

/-- Each parameter window's block at every point is the whole column. -/
theorem iblk1_eq (c : Dev nD) (t : Fin cfg0.N) :
    (iblk m c 1 t : FVec Ideal S1x256x1 .f32) = (V m c main_v1 : S1x256x1.Idx → EReal) := by
  obtain ⟨-, -, -, -, -, -, e0, e1, e2, -⟩ := idx_facts t
  funext x
  unfold iblk
  rw [View.read_apply]
  show V m c main_v1 _ = V m c main_v1 _
  congr 1
  funext a
  apply Fin.ext
  match a with
  | ⟨0, _⟩ => show win0_1.index t (0 : Fin 3) * 1 + 1 * (x 0).val = (x 0).val; omega
  | ⟨1, _⟩ => show win0_1.index t (1 : Fin 3) * 256 + 1 * (x 1).val = (x 1).val; omega
  | ⟨2, _⟩ => show win0_1.index t (2 : Fin 3) * 1 + 1 * (x 2).val = (x 2).val; omega

theorem iblk2_eq (c : Dev nD) (t : Fin cfg0.N) :
    (iblk m c 2 t : FVec Ideal S1x256x1 .f32) = (V m c main_v2 : S1x256x1.Idx → EReal) := by
  obtain ⟨-, -, -, -, -, -, -, -, -, e0, e1, e2, -⟩ := idx_facts t
  funext x
  unfold iblk
  rw [View.read_apply]
  show V m c main_v2 _ = V m c main_v2 _
  congr 1
  funext a
  apply Fin.ext
  match a with
  | ⟨0, _⟩ => show win0_2.index t (0 : Fin 3) * 1 + 1 * (x 0).val = (x 0).val; omega
  | ⟨1, _⟩ => show win0_2.index t (1 : Fin 3) * 256 + 1 * (x 1).val = (x 1).val; omega
  | ⟨2, _⟩ => show win0_2.index t (2 : Fin 3) * 1 + 1 * (x 2).val = (x 2).val; omega

theorem iblk3_eq (c : Dev nD) (t : Fin cfg0.N) :
    (iblk m c 3 t : FVec Ideal S1x256x1 .f32) = (V m c main_v3 : S1x256x1.Idx → EReal) := by
  obtain ⟨-, -, -, -, -, -, -, -, -, -, -, -, e0, e1, e2⟩ := idx_facts t
  funext x
  unfold iblk
  rw [View.read_apply]
  show V m c main_v3 _ = V m c main_v3 _
  congr 1
  funext a
  apply Fin.ext
  match a with
  | ⟨0, _⟩ => show win0_3.index t (0 : Fin 3) * 1 + 1 * (x 0).val = (x 0).val; omega
  | ⟨1, _⟩ => show win0_3.index t (1 : Fin 3) * 256 + 1 * (x 1).val = (x 1).val; omega
  | ⟨2, _⟩ => show win0_3.index t (2 : Fin 3) * 1 + 1 * (x 2).val = (x 2).val; omega

/-! ## The result as one function of the arrays the region finds -/

/-- The one-pass blend of sample `n` of `X` at channel `c`, position `k`, with the parameter columns `R G B`. -/
def cell (X : S32x256x4096.Idx → EReal) (R G B : S1x256x1.Idx → EReal) (n : Fin 32) (c : Fin 256) (k : Fin 4096) : EReal :=
  Moments.fused w4096 w256 wEps wOne wZero (fun c' k' => X (ix3 n c' k'))
    (fun c' => R (ix3 (0 : Fin 1) c' (0 : Fin 1))) (fun c' => G (ix3 (0 : Fin 1) c' (0 : Fin 1)))
    (fun c' => B (ix3 (0 : Fin 1) c' (0 : Fin 1))) c k

/-- The whole `[32, 256, 4096]` result. -/
def blendAll (X : S32x256x4096.Idx → EReal) (R G B : S1x256x1.Idx → EReal) : S32x256x4096.Idx → EReal :=
  fun i => cell X R G B (i 0) (i 1) (i 2)

/-- What point `t` writes back is block `t` of `blendAll` of the arrays as the region finds them. -/
theorem flushed_eq (c : Dev nD) (t : Fin cfg0.N) :
    (dats m 0 c).flushed 4 t = ((cfg0.win 4).blk t).view.read (Elt Ideal)
      (blendAll (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S1x256x4096) hz, View.ld_unit_zero (S := S1x256x1) hz]
  obtain ⟨-, -, -, f0, f1, f2, -⟩ := idx_facts t
  funext j
  have hj0 : (j 0).val < 1 := (j 0).isLt
  show k0_pay1 (F := Ideal) (k0_pay2 (iblk m c 0 t)) (k0_pay3 (iblk m c 1 t)) (k0_pay4 (iblk m c 2 t)) (k0_pay5 (iblk m c 3 t))
      (k0_pay6 (iblk m c 0 t)) (k0_pay8 (iblk m c 0 t)) (k0_pay9 (iblk m c 0 t)) (k0_pay10 (iblk m c 0 t)) j
    = cell (V m c main_v0) (V m c main_v1) (V m c main_v2) (V m c main_v3)
        ((((cfg0.win 4).blk t).view.emb j) 0) ((((cfg0.win 4).blk t).view.emb j) 1) ((((cfg0.win 4).blk t).view.emb j) 2)
  refine (stored_at (iblk m c 0 t) (iblk m c 1 t) (iblk m c 2 t) (iblk m c 3 t) j).trans ?_
  have he0 : ((((cfg0.win 4).blk t).view.emb j) 0).val = t.val := by
    show win0_4.index t (0 : Fin 3) * 1 + 1 * (j 0).val = t.val; omega
  have he1 : ((((cfg0.win 4).blk t).view.emb j) 1 : Fin 256) = j 1 := Fin.ext (by
    show win0_4.index t (1 : Fin 3) * 256 + 1 * (j 1).val = (j 1).val; omega)
  have he2 : ((((cfg0.win 4).blk t).view.emb j) 2 : Fin 4096) = j 2 := Fin.ext (by
    show win0_4.index t (2 : Fin 3) * 4096 + 1 * (j 2).val = (j 2).val; omega)
  have hrows : rows (iblk m c 0 t) = fun c' k' => (V m c main_v0 : S32x256x4096.Idx → EReal)
      (ix3 ((((cfg0.win 4).blk t).view.emb j) 0) c' k') :=
    funext fun c' => funext fun k' => iblk0_apply m c t (ix3 (0 : Fin 1) c' k') _ he0 rfl rfl
  unfold cell
  rw [hrows, he1, he2, iblk1_eq, iblk2_eq, iblk3_eq]

/-- An index of the result is in point `t`'s block iff each coordinate is in the block's range on its axis. -/
theorem mem_blk (t : Fin cfg0.N) (i : S32x256x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v4).slice (win0_4.rect t)).set ↔ _
  rw [View.set_slice_whole, Rect.mem_set_unit]
  exact Iff.rfl

/-- The result array after the run: sample `n`'s block is written by point `n`, and the 32 blocks cover it. -/
theorem final4 (c : Dev nD) : (dats m 0 c).arrAt 4 cfg0.N
    = blendAll (V m c main_v0) (V m c main_v1) (V m c main_v2) (V m c main_v3) :=
  (dats m 0 c).arrAt_eq_of_cover 4 _ (fun t _ => flushed_eq m c t) fun i => by
    have hi0 : (i 0).val < 32 := (i 0).isLt
    have hi1 : (i 1).val < 256 := (i 1).isLt
    have hi2 : (i 2).val < 4096 := (i 2).isLt
    have hN : cfg0.N = 32 := N_0
    obtain ⟨t, ht⟩ : ∃ t : Fin cfg0.N, t.val = (i 0).val := ⟨⟨(i 0).val, by rw [hN]; exact hi0⟩, rfl⟩
    refine ⟨t, flush0_4 t, ?_⟩
    rw [mem_blk]
    obtain ⟨-, -, -, f0, f1, f2, -⟩ := idx_facts t
    intro a
    match a with
    | ⟨0, _⟩ =>
      show win0_4.index t (0 : Fin 3) * 1 ≤ (i 0).val ∧ (i 0).val < win0_4.index t (0 : Fin 3) * 1 + 1
      rw [f0]; omega
    | ⟨1, _⟩ =>
      show win0_4.index t (1 : Fin 3) * 256 ≤ (i 1).val ∧ (i 1).val < win0_4.index t (1 : Fin 3) * 256 + 256
      rw [f1]; omega
    | ⟨2, _⟩ =>
      show win0_4.index t (2 : Fin 3) * 4096 ≤ (i 2).val ∧ (i 2).val < win0_4.index t (2 : Fin 3) * 4096 + 4096
      rw [f2]; omega

/-! ## The host lines before the region: the arrays the region finds are the arguments, re-viewed -/

theorem V_v0 (c : Dev nD) : (V m c main_v0 : S32x256x4096.Idx → EReal)
    = shapeCast S32x256x4096 (m ((c : Thread nD τ).loc main_arg0) : S32x256x64x64.Idx → EReal)
        shapeCasts_S32x256x64x64_S32x256x4096 := by
  show StableHlo.after hostOps0 (fun b => m (c, b)) (Proc.devRef .tc main_v0) = _
  after_results
  all_goals rfl

theorem V_v1 (c : Dev nD) : (V m c main_v1 : S1x256x1.Idx → EReal)
    = shapeCast S1x256x1 (m ((c : Thread nD τ).loc main_arg1) : S1x256x1x1.Idx → EReal) shapeCasts_S1x256x1x1_S1x256x1 := by
  show StableHlo.after hostOps0 (fun b => m (c, b)) (Proc.devRef .tc main_v1) = _
  after_results
  all_goals rfl

theorem V_v2 (c : Dev nD) : (V m c main_v2 : S1x256x1.Idx → EReal)
    = shapeCast S1x256x1 (m ((c : Thread nD τ).loc main_arg2) : S1x256x1x1.Idx → EReal) shapeCasts_S1x256x1x1_S1x256x1 := by
  show StableHlo.after hostOps0 (fun b => m (c, b)) (Proc.devRef .tc main_v2) = _
  after_results
  all_goals rfl

theorem V_v3 (c : Dev nD) : (V m c main_v3 : S1x256x1.Idx → EReal)
    = shapeCast S1x256x1 (m ((c : Thread nD τ).loc main_arg3) : S1x256x1x1.Idx → EReal) shapeCasts_S1x256x1x1_S1x256x1 := by
  show StableHlo.after hostOps0 (fun b => m (c, b)) (Proc.devRef .tc main_v3) = _
  after_results
  all_goals rfl

/-! ## The whole program's result -/

/-- The program's result as a function of its four arguments: the arguments re-viewed as `[32, 256, 4096]` and
    `[1, 256, 1]`, blended sample by sample, and the result re-viewed as `[32, 256, 64, 64]`. -/
def result (X : S32x256x64x64.Idx → EReal) (R G B : S1x256x1x1.Idx → EReal) : S32x256x64x64.Idx → EReal :=
  shapeCast S32x256x64x64
    (blendAll (shapeCast S32x256x4096 X shapeCasts_S32x256x64x64_S32x256x4096)
      (shapeCast S1x256x1 R shapeCasts_S1x256x1x1_S1x256x1) (shapeCast S1x256x1 G shapeCasts_S1x256x1x1_S1x256x1)
      (shapeCast S1x256x1 B shapeCasts_S1x256x1x1_S1x256x1))
    shapeCasts_S32x256x4096_S32x256x64x64

/-- The host line after the region re-views the region's result array. -/
theorem tail_eq (c : Dev nD) :
    (Pipeline.afterTail₀ cfgs (dats m) 0 (V0 m) [hostOps1] c main_v5 : S32x256x64x64.Idx → EReal)
      = result (m ((c : Thread nD τ).loc main_arg0)) (m ((c : Thread nD τ).loc main_arg1))
          (m ((c : Thread nD τ).loc main_arg2)) (m ((c : Thread nD τ).loc main_arg3)) := by
  have hA : Pipeline.withArrays (cfgs 0).spec c (V0 m c) (fun w => (dats m 0 c).arrAt w (cfgs 0).N)
      (Proc.devRef .tc main_v4) = blendAll (V m c main_v0) (V m c main_v1) (V m c main_v2) (V m c main_v3) :=
    (Pipeline.withArrays_arr spec0 launch0.win.arr_inj c _ _ 4).trans (final4 m c)
  unfold Pipeline.afterTail₀
  show StableHlo.after hostOps1 _ (Proc.devRef .tc main_v5) = _
  after_results
  rw [hA, V_v0, V_v1, V_v2, V_v3]
  rfl

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefSums.lean ====
/-
  The reference's sums over several axes, read at an index.

  A sum of a `[32, 256, 64, 64]` array over its last two axes, at `(n, c)`, adds the entries `(n, c, h, w)` over all
  `(h, w)`; over its last three axes, at `n`, the entries `(n, c, h, w)` over all `c` and all `(h, w)`. The indices
  that reduce to a given result index are exactly those with the kept coordinates fixed, and they correspond one to one
  with the free coordinates.
-/
import proofs.«153214_j1580547973998_2_alg».proof.ReferenceIdeal
import Idealize.ShloMosaic.Lib.ValueIdx
import Idealize.ShloMosaic.PureOps.Reduce

noncomputable section

open scoped BigOperators

namespace Cert.ReferenceIdeal.Sums

open Idealize.ShloMosaic Idealize.ShloMosaic.ValueIdx Cert.ReferenceIdeal

/-- The sum over the two spatial axes, at sample `n` and channel `c`. -/
theorem sum_spatial (h : S32x256x64x64.ReducesTo [2, 3] S32x256) (x : S32x256x64x64.Idx → EReal) (init : EReal)
    (n : Fin 32) (c : Fin 256) :
    Ideal.hostReduceAdd h x init (ix2 n c) = init + ∑ p : Fin 64 × Fin 64, x (ix4 n c p.1 p.2) := by
  unfold Ideal.hostReduceAdd
  refine congrArg (init + ·) ?_
  have hback : ∀ i : S32x256x64x64.Idx, h.drop i = ix2 n c → ix4 n c (i 2) (i 3) = i := by
    intro i hi
    have h0 : (i 0).val = n.val := (h.drop_apply_val_of_eq i 0 0).symm.trans (congrArg (fun j => (j 0).val) hi)
    have h1 : (i 1).val = c.val := (h.drop_apply_val_of_eq i 1 1).symm.trans (congrArg (fun j => (j 1).val) hi)
    funext a; apply Fin.ext
    match a with
    | ⟨0, _⟩ => exact h0.symm
    | ⟨1, _⟩ => exact h1.symm
    | ⟨2, _⟩ => rfl
    | ⟨3, _⟩ => rfl
  refine Finset.sum_nbij' (fun i => ((i 2, i 3) : Fin 64 × Fin 64)) (fun p => ix4 n c p.1 p.2) ?_ ?_ ?_ ?_ ?_
  · intro i _; exact Finset.mem_univ _
  · intro p _
    rw [Finset.mem_filter]
    refine ⟨Finset.mem_univ _, funext fun b => Fin.ext ?_⟩
    match b with
    | ⟨0, _⟩ => exact h.drop_apply_val_of_eq _ 0 0
    | ⟨1, _⟩ => exact h.drop_apply_val_of_eq _ 1 1
  · intro i hi; exact hback i (Finset.mem_filter.mp hi).2
  · intro p _; rfl
  · intro i hi; exact congrArg x (hback i (Finset.mem_filter.mp hi).2).symm

/-- The sum over the channel axis and the two spatial axes, at sample `n`. -/
theorem sum_sample (h : S32x256x64x64.ReducesTo [1, 2, 3] S32) (x : S32x256x64x64.Idx → EReal) (init : EReal)
    (n : Fin 32) :
    Ideal.hostReduceAdd h x init (ix1 n) = init + ∑ c : Fin 256, ∑ p : Fin 64 × Fin 64, x (ix4 n c p.1 p.2) := by
  unfold Ideal.hostReduceAdd
  refine congrArg (init + ·) ?_
  rw [← Fintype.sum_prod_type' (fun (c : Fin 256) (p : Fin 64 × Fin 64) => x (ix4 n c p.1 p.2))]
  have hback : ∀ i : S32x256x64x64.Idx, h.drop i = ix1 n → ix4 n (i 1) (i 2) (i 3) = i := by
    intro i hi
    have h0 : (i 0).val = n.val := (h.drop_apply_val_of_eq i 0 0).symm.trans (congrArg (fun j => (j 0).val) hi)
    funext a; apply Fin.ext
    match a with
    | ⟨0, _⟩ => exact h0.symm
    | ⟨1, _⟩ => rfl
    | ⟨2, _⟩ => rfl
    | ⟨3, _⟩ => rfl
  refine Finset.sum_nbij' (fun i => ((i 1, (i 2, i 3)) : Fin 256 × (Fin 64 × Fin 64)))
    (fun q => ix4 n q.1 q.2.1 q.2.2) ?_ ?_ ?_ ?_ ?_
  · intro i _; exact Finset.mem_univ _
  · intro q _
    rw [Finset.mem_filter]
    refine ⟨Finset.mem_univ _, funext fun b => Fin.ext ?_⟩
    match b with
    | ⟨0, _⟩ => exact h.drop_apply_val_of_eq _ 0 0
  · intro i hi; exact hback i (Finset.mem_filter.mp hi).2
  · intro q _; rfl
  · intro i hi; exact congrArg x (hback i (Finset.mem_filter.mp hi).2).symm

end Cert.ReferenceIdeal.Sums

end
-- ==== Proof.RefPoint.lean ====
/-
  The reference's result read at one element.

  At `(n, c, h, w)` the reference subtracts channel `(n, c)`'s mean over the 64 × 64 positions, multiplies by the
  reciprocal root of that channel's stabilised two-pass variance, does the same with sample `n`'s mean and variance over
  all channels and positions, blends the two by `ρ c` and `1 - ρ c`, scales by `γ c` and adds `β c`. Each stage is read
  at the index through the generated stage lemmas; the four sums over several axes are read by Proof/RefSums.lean. The
  result is `Moments.blended` of sample `n`'s entries, positions named by the pair `(h, w)`.
-/
import proofs.«153214_j1580547973998_2_alg».proof.Proof.Gen.ReferenceIdeal.Read
import proofs.«153214_j1580547973998_2_alg».proof.Proof.RefSums
import proofs.«153214_j1580547973998_2_alg».proof.Proof.MomentsDef
import proofs.«153214_j1580547973998_2_alg».proof.Proof.Consts
import Idealize.ShloMosaic.Lib.ValueIdx

noncomputable section

open scoped BigOperators

namespace Cert.ReferenceIdeal.Point

open Cert.ReferenceIdeal Cert.ReferenceIdeal.Gen Cert.ReferenceIdeal.Read Idealize.ShloMosaic Idealize.ShloMosaic.ValueIdx Cert.Consts

/-- Sample `n` of the input: its entries by channel and position pair. -/
abbrev sample (X : S32x256x64x64.Idx → EReal) (n : Fin 32) : Fin 256 → Fin 64 × Fin 64 → EReal :=
  fun c p => X (ix4 n c p.1 p.2)
/-- A per-channel parameter's entries by channel. -/
abbrev param (P : S1x256x1x1.Idx → EReal) : Fin 256 → EReal :=
  fun c => P (ix4 (0 : Fin 1) c (0 : Fin 1) (0 : Fin 1))

variable (X : S32x256x64x64.Idx → EReal) (n : Fin 32)

/-! ## The index maps of the spreads, at coordinates -/

theorem idx_chan_of_col (c : Fin 256) : idx_main_v1 (ix4 n c (0 : Fin 1) (0 : Fin 1)) = ix2 n c :=
  funext fun a => by match a with | ⟨0, _⟩ => rfl | ⟨1, _⟩ => rfl
theorem idx_col_of_full (c : Fin 256) (h w : Fin 64) : idx_main_v4 (ix4 n c h w) = ix4 n c (0 : Fin 1) (0 : Fin 1) :=
  funext fun a => by match a with | ⟨0, _⟩ => rfl | ⟨1, _⟩ => rfl | ⟨2, _⟩ => rfl | ⟨3, _⟩ => rfl
theorem idx_samp_of_cell : idx_main_v19 (ix4 n (0 : Fin 1) (0 : Fin 1) (0 : Fin 1)) = ix1 n :=
  funext fun a => by match a with | ⟨0, _⟩ => rfl
theorem idx_cell_of_full (c : Fin 256) (h w : Fin 64) :
    idx_main_v22 (ix4 n c h w) = ix4 n (0 : Fin 1) (0 : Fin 1) (0 : Fin 1) :=
  funext fun a => by match a with | ⟨0, _⟩ => rfl | ⟨1, _⟩ => rfl | ⟨2, _⟩ => rfl | ⟨3, _⟩ => rfl
theorem idx_param_of_full (c : Fin 256) (h w : Fin 64) :
    idx_main_v36 (ix4 n c h w) = ix4 (0 : Fin 1) c (0 : Fin 1) (0 : Fin 1) :=
  funext fun a => by match a with | ⟨0, _⟩ => rfl | ⟨1, _⟩ => rfl | ⟨2, _⟩ => rfl | ⟨3, _⟩ => rfl

/-! ## Instance statistics: per sample and channel -/

/-- The channel's mean. -/
theorem mean_apply (c : Fin 256) :
    val_main_v3 (F := Ideal) X (ix4 n c (0 : Fin 1) (0 : Fin 1)) = Moments.rMean wZero w4096 (sample X n) c := by
  rw [val_main_v3_apply, val_main_v1_apply, idx_chan_of_col]
  exact congrArg (fun s => Ideal.div s w4096) (Sums.sum_spatial _ X wZero n c)

/-- The entry less its channel's mean. -/
theorem dev_apply (c : Fin 256) (h w : Fin 64) :
    val_main_v5 (F := Ideal) X (ix4 n c h w) = X (ix4 n c h w) - Moments.rMean wZero w4096 (sample X n) c := by
  rw [val_main_v5_apply, val_main_v4_apply, idx_col_of_full, mean_apply]; rfl

/-- The channel's two-pass variance. -/
theorem var_apply (c : Fin 256) :
    val_main_v10 (F := Ideal) X (ix4 n c (0 : Fin 1) (0 : Fin 1)) = Moments.rVar wZero w4096 (sample X n) c := by
  rw [val_main_v10_apply, val_main_v8_apply]
  rw [show idx_main_v8 (ix4 n c (0 : Fin 1) (0 : Fin 1)) = ix2 n c from idx_chan_of_col n c]
  refine congrArg (fun s => Ideal.div s w4096) ((Sums.sum_spatial _ (val_main_v6 (F := Ideal) X) wZero n c).trans ?_)
  refine congrArg (wZero + ·) (Finset.sum_congr rfl fun p _ => ?_)
  rw [val_main_v6_apply, dev_apply]; rfl

/-- The instance-normalised entry. -/
theorem inorm_apply (c : Fin 256) (h w : Fin 64) :
    val_main_v17 (F := Ideal) X (ix4 n c h w)
      = (X (ix4 n c h w) - Moments.rMean wZero w4096 (sample X n) c)
          * Ideal.rsqrt (Moments.rVar wZero w4096 (sample X n) c + wEps) := by
  rw [val_main_v17_apply, val_main_v16_apply]
  rw [show idx_main_v16 (ix4 n c h w) = ix4 n c (0 : Fin 1) (0 : Fin 1) from idx_col_of_full n c h w]
  rw [val_main_v15_apply, val_main_v14_apply, var_apply, val_main_v12_apply, val_main_v11_apply]
  rw [show idx_main_v11 (ix4 n c h w) = ix4 n c (0 : Fin 1) (0 : Fin 1) from idx_col_of_full n c h w, mean_apply]
  rfl

/-! ## Layer statistics: per sample -/

/-- The sample's mean. -/
theorem lmean_apply :
    val_main_v21 (F := Ideal) X (ix4 n (0 : Fin 1) (0 : Fin 1) (0 : Fin 1)) = Moments.rLMean wZero w2p20 (sample X n) := by
  rw [val_main_v21_apply, val_main_v19_apply, idx_samp_of_cell]
  exact congrArg (fun s => Ideal.div s w2p20) (Sums.sum_sample _ X wZero n)

/-- The entry less its sample's mean. -/
theorem ldev_apply (c : Fin 256) (h w : Fin 64) :
    val_main_v23 (F := Ideal) X (ix4 n c h w) = X (ix4 n c h w) - Moments.rLMean wZero w2p20 (sample X n) := by
  rw [val_main_v23_apply, val_main_v22_apply, idx_cell_of_full, lmean_apply]; rfl

/-- The sample's two-pass variance. -/
theorem lvar_apply :
    val_main_v28 (F := Ideal) X (ix4 n (0 : Fin 1) (0 : Fin 1) (0 : Fin 1)) = Moments.rLVar wZero w2p20 (sample X n) := by
  rw [val_main_v28_apply, val_main_v26_apply]
  rw [show idx_main_v26 (ix4 n (0 : Fin 1) (0 : Fin 1) (0 : Fin 1)) = ix1 n from idx_samp_of_cell n]
  refine congrArg (fun s => Ideal.div s w2p20) ((Sums.sum_sample _ (val_main_v24 (F := Ideal) X) wZero n).trans ?_)
  refine congrArg (wZero + ·) (Finset.sum_congr rfl fun c _ => Finset.sum_congr rfl fun p _ => ?_)
  rw [val_main_v24_apply, ldev_apply]; rfl

/-- The layer-normalised entry. -/
theorem lnorm_apply (c : Fin 256) (h w : Fin 64) :
    val_main_v35 (F := Ideal) X (ix4 n c h w)
      = (X (ix4 n c h w) - Moments.rLMean wZero w2p20 (sample X n))
          * Ideal.rsqrt (Moments.rLVar wZero w2p20 (sample X n) + wEps) := by
  rw [val_main_v35_apply, val_main_v34_apply]
  rw [show idx_main_v34 (ix4 n c h w) = ix4 n (0 : Fin 1) (0 : Fin 1) (0 : Fin 1) from idx_cell_of_full n c h w]
  rw [val_main_v33_apply, val_main_v32_apply, lvar_apply, val_main_v30_apply, val_main_v29_apply]
  rw [show idx_main_v29 (ix4 n c h w) = ix4 n (0 : Fin 1) (0 : Fin 1) (0 : Fin 1) from idx_cell_of_full n c h w, lmean_apply]
  rfl

/-! ## The blend -/

/-- The reference's result at `(n, c, h, w)` is the two-pass blend of sample `n`. -/
theorem result_apply (R G B : S1x256x1x1.Idx → EReal) (c : Fin 256) (h w : Fin 64) :
    val_main_v46 (F := Ideal) X R G B (ix4 n c h w)
      = Moments.blended wZero w4096 w2p20 wEps wOne (sample X n) (param R) (param G) (param B) c (h, w) := by
  rw [val_main_v46_apply, val_main_v44_apply, val_main_v42_apply, val_main_v37_apply, val_main_v41_apply,
    inorm_apply, lnorm_apply, val_main_v36_apply, val_main_v40_apply, val_main_v43_apply, val_main_v45_apply]
  rw [show idx_main_v40 (ix4 n c h w) = ix4 (0 : Fin 1) c (0 : Fin 1) (0 : Fin 1) from idx_param_of_full n c h w,
    show idx_main_v43 (ix4 n c h w) = ix4 (0 : Fin 1) c (0 : Fin 1) (0 : Fin 1) from idx_param_of_full n c h w,
    show idx_main_v45 (ix4 n c h w) = ix4 (0 : Fin 1) c (0 : Fin 1) (0 : Fin 1) from idx_param_of_full n c h w,
    idx_param_of_full, val_main_v39_apply]
  rfl

end Cert.ReferenceIdeal.Point

end
-- ==== Proof.MomentsLaw.lean ====
/-
  The one-pass and the two-pass normalisation of a sample (Proof/MomentsDef.lean) agree on REAL data.

  For a real sample every moment is a real number, so the extended reals' operations are the reals' and the usual
  identities hold: the mean of the squared deviations from the mean is the mean square less the squared mean
  (`(1/n) ∑ (x - μ)² = (1/n) ∑ x² - μ²`), so it is nonnegative and the clamp at zero does nothing; with every channel
  holding the same number of positions, the mean over the channels of the channels' means (mean squares) is the mean
  (mean square) over all channels and positions; each stabilised variance is positive, so its reciprocal root is a real
  number; and with all of these real, `x · A + B` and the blend as written are one polynomial identity.
-/
import proofs.«153214_j1580547973998_2_alg».proof.Proof.MomentsDef

noncomputable section

open scoped BigOperators

namespace Cert.Moments

open Idealize.ShloMosaic

variable {ι κ : Type} [Fintype ι] [Fintype κ]

/-! ## Renaming the positions -/

theorem chMean_reindex {κ' : Type} [Fintype κ'] (e : κ' ≃ κ) (nK : EReal) (x : ι → κ → EReal) (c : ι) :
    chMean nK (fun c k => x c (e k)) c = chMean nK x c := by
  unfold chMean
  exact congrArg (fun s => Ideal.div s nK) (Equiv.sum_comp e (fun k => x c k))

theorem chMeanSq_reindex {κ' : Type} [Fintype κ'] (e : κ' ≃ κ) (nK : EReal) (x : ι → κ → EReal) (c : ι) :
    chMeanSq nK (fun c k => x c (e k)) c = chMeanSq nK x c := by
  unfold chMeanSq
  exact congrArg (fun s => Ideal.div s nK) (Equiv.sum_comp e (fun k => x c k * x c k))

theorem chRstd_reindex {κ' : Type} [Fintype κ'] (e : κ' ≃ κ) (nK eps zero : EReal) (x : ι → κ → EReal) (c : ι) :
    chRstd nK eps zero (fun c k => x c (e k)) c = chRstd nK eps zero x c := by
  unfold chRstd
  rw [chMeanSq_reindex e nK x c, chMean_reindex e nK x c]

theorem lyMean_reindex {κ' : Type} [Fintype κ'] (e : κ' ≃ κ) (nK nC : EReal) (x : ι → κ → EReal) :
    lyMean nK nC (fun c k => x c (e k)) = lyMean nK nC x := by
  unfold lyMean
  exact congrArg (fun s => Ideal.div s nC) (Finset.sum_congr rfl (fun c _ => chMean_reindex e nK x c))

theorem lyMeanSq_reindex {κ' : Type} [Fintype κ'] (e : κ' ≃ κ) (nK nC : EReal) (x : ι → κ → EReal) :
    lyMeanSq nK nC (fun c k => x c (e k)) = lyMeanSq nK nC x := by
  unfold lyMeanSq
  exact congrArg (fun s => Ideal.div s nC) (Finset.sum_congr rfl (fun c _ => chMeanSq_reindex e nK x c))

theorem lyRstd_reindex {κ' : Type} [Fintype κ'] (e : κ' ≃ κ) (nK nC eps zero : EReal) (x : ι → κ → EReal) :
    lyRstd nK nC eps zero (fun c k => x c (e k)) = lyRstd nK nC eps zero x := by
  unfold lyRstd
  rw [lyMeanSq_reindex e nK nC x, lyMean_reindex e nK nC x]

/-- Renaming the positions by a bijection renames the result's position and changes nothing else: every moment is a sum
    over all positions. -/
theorem fused_reindex {κ' : Type} [Fintype κ'] (e : κ' ≃ κ) (nK nC eps one zero : EReal) (x : ι → κ → EReal)
    (ρ γ β : ι → EReal) (c : ι) (k : κ') :
    fused nK nC eps one zero (fun c k => x c (e k)) ρ γ β c k = fused nK nC eps one zero x ρ γ β c (e k) := by
  unfold fused
  rw [chRstd_reindex e nK eps zero x c, lyRstd_reindex e nK nC eps zero x, chMean_reindex e nK x c,
    lyMean_reindex e nK nC x]

/-! ## Coercion of the reals into the extended reals -/

/-- A finite sum of real numbers, taken in the extended reals, is the real sum. -/
theorem coe_sum {α : Type} (s : Finset α) (f : α → ℝ) :
    (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- The larger of a real number and zero, taken in the extended reals, is the real one. -/
theorem max_coe_zero (a : ℝ) : max (a : EReal) 0 = ((max a 0 : ℝ) : EReal) := by
  rw [← EReal.coe_zero]
  exact (EReal.coe_strictMono.monotone.map_max).symm

/-- The reciprocal root of a positive real number is a real number. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-! ## The moments of a real sample, as real numbers -/

/-- Channel `c`'s mean. -/
def muR (nK : ℝ) (x : ι → κ → ℝ) (c : ι) : ℝ := (∑ k, x c k) * (1 / nK)

/-- Channel `c`'s mean square. -/
def sqR (nK : ℝ) (x : ι → κ → ℝ) (c : ι) : ℝ := (∑ k, x c k * x c k) * (1 / nK)

/-- Channel `c`'s reciprocal standard deviation from the clamped one-pass variance. -/
def rstdR (nK e : ℝ) (x : ι → κ → ℝ) (c : ι) : ℝ :=
  (Real.sqrt (max (sqR nK x c - muR nK x c * muR nK x c) 0 + e))⁻¹

/-- The mean over the channels of the channels' means. -/
def lmuR (nK nC : ℝ) (x : ι → κ → ℝ) : ℝ := (∑ c, muR nK x c) * (1 / nC)

/-- The mean over the channels of the channels' mean squares. -/
def lsqR (nK nC : ℝ) (x : ι → κ → ℝ) : ℝ := (∑ c, sqR nK x c) * (1 / nC)

/-- The sample's reciprocal standard deviation from the clamped one-pass variance. -/
def lrstdR (nK nC e : ℝ) (x : ι → κ → ℝ) : ℝ :=
  (Real.sqrt (max (lsqR nK nC x - lmuR nK nC x * lmuR nK nC x) 0 + e))⁻¹

/-- Channel `c`'s variance as the mean squared deviation. -/
def varR (nK : ℝ) (x : ι → κ → ℝ) (c : ι) : ℝ :=
  (∑ k, (x c k - muR nK x c) * (x c k - muR nK x c)) * (1 / nK)

/-- The sample's mean over channels and positions together. -/
def lmu2R (nN : ℝ) (x : ι → κ → ℝ) : ℝ := (∑ c, ∑ k, x c k) * (1 / nN)

/-- The sample's variance as the mean squared deviation. -/
def lvarR (nN : ℝ) (x : ι → κ → ℝ) : ℝ :=
  (∑ c, ∑ k, (x c k - lmu2R nN x) * (x c k - lmu2R nN x)) * (1 / nN)

/-! ## Each extended-real moment of a real sample is the coercion of the real moment -/

theorem chMean_coe {nK : ℝ} (hK : nK ≠ 0) (x : ι → κ → ℝ) (c : ι) :
    chMean (nK : EReal) (fun c k => ((x c k : ℝ) : EReal)) c = ((muR nK x c : ℝ) : EReal) := by
  simp only [chMean, muR]
  rw [Ideal.div_coe hK, coe_sum, ← EReal.coe_mul]

theorem chMeanSq_coe {nK : ℝ} (hK : nK ≠ 0) (x : ι → κ → ℝ) (c : ι) :
    chMeanSq (nK : EReal) (fun c k => ((x c k : ℝ) : EReal)) c = ((sqR nK x c : ℝ) : EReal) := by
  simp only [chMeanSq, sqR, ← EReal.coe_mul]
  rw [Ideal.div_coe hK, coe_sum, ← EReal.coe_mul]

theorem chRstd_coe {nK e : ℝ} (hK : nK ≠ 0) (he : 0 < e) (x : ι → κ → ℝ) (c : ι) :
    chRstd (nK : EReal) (e : EReal) 0 (fun c k => ((x c k : ℝ) : EReal)) c = ((rstdR nK e x c : ℝ) : EReal) := by
  unfold chRstd rstdR
  rw [chMeanSq_coe hK, chMean_coe hK, ← EReal.coe_mul, ← EReal.coe_sub, max_coe_zero, ← EReal.coe_add]
  exact rsqrt_coe_pos (add_pos_of_nonneg_of_pos (le_max_right _ _) he)

theorem lyMean_coe {nK nC : ℝ} (hK : nK ≠ 0) (hC : nC ≠ 0) (x : ι → κ → ℝ) :
    lyMean (nK : EReal) (nC : EReal) (fun c k => ((x c k : ℝ) : EReal)) = ((lmuR nK nC x : ℝ) : EReal) := by
  unfold lyMean lmuR
  simp only [chMean_coe hK]
  rw [Ideal.div_coe hC, coe_sum, ← EReal.coe_mul]

theorem lyMeanSq_coe {nK nC : ℝ} (hK : nK ≠ 0) (hC : nC ≠ 0) (x : ι → κ → ℝ) :
    lyMeanSq (nK : EReal) (nC : EReal) (fun c k => ((x c k : ℝ) : EReal)) = ((lsqR nK nC x : ℝ) : EReal) := by
  unfold lyMeanSq lsqR
  simp only [chMeanSq_coe hK]
  rw [Ideal.div_coe hC, coe_sum, ← EReal.coe_mul]

theorem lyRstd_coe {nK nC e : ℝ} (hK : nK ≠ 0) (hC : nC ≠ 0) (he : 0 < e) (x : ι → κ → ℝ) :
    lyRstd (nK : EReal) (nC : EReal) (e : EReal) 0 (fun c k => ((x c k : ℝ) : EReal))
      = ((lrstdR nK nC e x : ℝ) : EReal) := by
  unfold lyRstd lrstdR
  rw [lyMeanSq_coe hK hC, lyMean_coe hK hC, ← EReal.coe_mul, ← EReal.coe_sub, max_coe_zero, ← EReal.coe_add]
  exact rsqrt_coe_pos (add_pos_of_nonneg_of_pos (le_max_right _ _) he)

theorem rMean_coe {nK : ℝ} (hK : nK ≠ 0) (x : ι → κ → ℝ) (c : ι) :
    rMean 0 (nK : EReal) (fun c k => ((x c k : ℝ) : EReal)) c = ((muR nK x c : ℝ) : EReal) := by
  simp only [rMean, muR, zero_add]
  rw [Ideal.div_coe hK, coe_sum, ← EReal.coe_mul]

theorem rVar_coe {nK : ℝ} (hK : nK ≠ 0) (x : ι → κ → ℝ) (c : ι) :
    rVar 0 (nK : EReal) (fun c k => ((x c k : ℝ) : EReal)) c = ((varR nK x c : ℝ) : EReal) := by
  unfold rVar varR
  simp only [rMean_coe hK, zero_add, ← EReal.coe_sub, ← EReal.coe_mul]
  rw [Ideal.div_coe hK, coe_sum, ← EReal.coe_mul]

theorem rLMean_coe {nN : ℝ} (hN : nN ≠ 0) (x : ι → κ → ℝ) :
    rLMean 0 (nN : EReal) (fun c k => ((x c k : ℝ) : EReal)) = ((lmu2R nN x : ℝ) : EReal) := by
  simp only [rLMean, lmu2R, zero_add, coe_sum]
  rw [Ideal.div_coe hN, ← EReal.coe_mul]

theorem rLVar_coe {nN : ℝ} (hN : nN ≠ 0) (x : ι → κ → ℝ) :
    rLVar 0 (nN : EReal) (fun c k => ((x c k : ℝ) : EReal)) = ((lvarR nN x : ℝ) : EReal) := by
  unfold rLVar lvarR
  simp only [rLMean_coe hN, zero_add, ← EReal.coe_sub, ← EReal.coe_mul, coe_sum]
  rw [Ideal.div_coe hN, ← EReal.coe_mul]

/-! ## The identities between the real moments -/

/-- The mean of the squared deviations from the mean is the mean square less the squared mean. -/
theorem var_identity {α : Type} [Fintype α] (f : α → ℝ) {n : ℝ} (hn : (Fintype.card α : ℝ) = n) (hn0 : n ≠ 0)
    {m : ℝ} (hm : m = (∑ a, f a) * (1 / n)) :
    (∑ a, (f a - m) * (f a - m)) * (1 / n) = (∑ a, f a * f a) * (1 / n) - m * m := by
  have h1 : ∑ a, (f a - m) * (f a - m) = (∑ a, f a * f a) - 2 * m * (∑ a, f a) + n * (m * m) := by
    have h2 : ∀ a, (f a - m) * (f a - m) = f a * f a - 2 * m * f a + m * m := fun a => by ring
    simp only [h2]
    rw [Finset.sum_add_distrib, Finset.sum_sub_distrib, ← Finset.mul_sum, Finset.sum_const, Finset.card_univ,
      nsmul_eq_mul, hn]
  rw [h1, hm]
  field_simp
  ring

/-- A mean of squared deviations over a positive count is nonnegative. -/
theorem meanSqDev_nonneg {α : Type} [Fintype α] (f : α → ℝ) {n : ℝ} (hn0 : 0 < n) (m : ℝ) :
    0 ≤ (∑ a, (f a - m) * (f a - m)) * (1 / n) :=
  mul_nonneg (Finset.sum_nonneg (fun a _ => mul_self_nonneg _)) (by positivity)

theorem varR_eq {nK : ℝ} (hK : (Fintype.card κ : ℝ) = nK) (hK0 : nK ≠ 0) (x : ι → κ → ℝ) (c : ι) :
    varR nK x c = sqR nK x c - muR nK x c * muR nK x c := by
  unfold varR sqR
  exact var_identity (fun k => x c k) hK hK0 rfl

theorem varR_nonneg {nK : ℝ} (hK0 : 0 < nK) (x : ι → κ → ℝ) (c : ι) : 0 ≤ varR nK x c :=
  meanSqDev_nonneg (fun k => x c k) hK0 _

/-- With every channel holding `nK` positions, the mean of the channels' means is the mean over everything. -/
theorem lmuR_eq {nK nC : ℝ} (hK0 : nK ≠ 0) (hC0 : nC ≠ 0) (x : ι → κ → ℝ) :
    lmuR nK nC x = lmu2R (nC * nK) x := by
  unfold lmuR lmu2R muR
  rw [← Finset.sum_mul]
  field_simp

/-- Likewise the mean of the channels' mean squares is the mean square over everything. -/
theorem lsqR_eq {nK nC : ℝ} (hK0 : nK ≠ 0) (hC0 : nC ≠ 0) (x : ι → κ → ℝ) :
    lsqR nK nC x = (∑ c, ∑ k, x c k * x c k) * (1 / (nC * nK)) := by
  unfold lsqR sqR
  rw [← Finset.sum_mul]
  field_simp

theorem lvarR_eq {nK nC : ℝ} (hK : (Fintype.card κ : ℝ) = nK) (hC : (Fintype.card ι : ℝ) = nC) (hK0 : nK ≠ 0)
    (hC0 : nC ≠ 0) (x : ι → κ → ℝ) :
    lvarR (nC * nK) x = lsqR nK nC x - lmuR nK nC x * lmuR nK nC x := by
  have hN : (Fintype.card (ι × κ) : ℝ) = nC * nK := by
    rw [Fintype.card_prod, Nat.cast_mul, hK, hC]
  have hN0 : nC * nK ≠ 0 := mul_ne_zero hC0 hK0
  have h := var_identity (fun p : ι × κ => x p.1 p.2) hN hN0 (m := lmu2R (nC * nK) x)
    (by unfold lmu2R; rw [Fintype.sum_prod_type])
  rw [Fintype.sum_prod_type, Fintype.sum_prod_type] at h
  rw [lsqR_eq hK0 hC0, lmuR_eq hK0 hC0]
  unfold lvarR
  exact h

theorem lvarR_nonneg {nN : ℝ} (hN0 : 0 < nN) (x : ι → κ → ℝ) : 0 ≤ lvarR nN x :=
  mul_nonneg (Finset.sum_nonneg (fun c _ => Finset.sum_nonneg (fun k _ => mul_self_nonneg _))) (by positivity)

/-- The clamp does nothing to the one-pass channel variance, which is the two-pass one. -/
theorem rstdR_eq {nK e : ℝ} (hK : (Fintype.card κ : ℝ) = nK) (hK0 : 0 < nK) (x : ι → κ → ℝ) (c : ι) :
    rstdR nK e x c = (Real.sqrt (varR nK x c + e))⁻¹ := by
  unfold rstdR
  rw [← varR_eq hK hK0.ne' x c, max_eq_left (varR_nonneg hK0 x c)]

/-- The clamp does nothing to the one-pass sample variance, which is the two-pass one. -/
theorem lrstdR_eq {nK nC e : ℝ} (hK : (Fintype.card κ : ℝ) = nK) (hC : (Fintype.card ι : ℝ) = nC) (hK0 : 0 < nK)
    (hC0 : 0 < nC) (x : ι → κ → ℝ) :
    lrstdR nK nC e x = (Real.sqrt (lvarR (nC * nK) x + e))⁻¹ := by
  unfold lrstdR
  rw [← lvarR_eq hK hC hK0.ne' hC0.ne' x, max_eq_left (lvarR_nonneg (mul_pos hC0 hK0) x)]

/-- On real data, with `nK` the number of positions, `nC` the number of channels and a positive stabiliser, the one-pass
    multiply-add and the two-pass blend are the same extended real. -/
theorem fused_eq_blended (nK nC e : ℝ) (hK : (Fintype.card κ : ℝ) = nK) (hC : (Fintype.card ι : ℝ) = nC)
    (hK0 : 0 < nK) (hC0 : 0 < nC) (he : 0 < e) (x : ι → κ → ℝ) (ρ γ β : ι → ℝ) (c : ι) (k : κ) :
    fused (nK : EReal) (nC : EReal) (e : EReal) 1 0 (fun c k => ((x c k : ℝ) : EReal)) (fun c => ((ρ c : ℝ) : EReal))
        (fun c => ((γ c : ℝ) : EReal)) (fun c => ((β c : ℝ) : EReal)) c k
      = blended 0 (nK : EReal) ((nC * nK : ℝ) : EReal) (e : EReal) 1 (fun c k => ((x c k : ℝ) : EReal))
        (fun c => ((ρ c : ℝ) : EReal)) (fun c => ((γ c : ℝ) : EReal)) (fun c => ((β c : ℝ) : EReal)) c k := by
  have hK0' : nK ≠ 0 := hK0.ne'
  have hC0' : nC ≠ 0 := hC0.ne'
  have hN0 : nC * nK ≠ 0 := mul_ne_zero hC0' hK0'
  have hv : 0 < varR nK x c + e := add_pos_of_nonneg_of_pos (varR_nonneg hK0 x c) he
  have hV : 0 < lvarR (nC * nK) x + e := add_pos_of_nonneg_of_pos (lvarR_nonneg (mul_pos hC0 hK0) x) he
  unfold fused blended
  rw [chRstd_coe hK0' he, lyRstd_coe hK0' hC0' he, chMean_coe hK0', lyMean_coe hK0' hC0', rMean_coe hK0',
    rVar_coe hK0', rLMean_coe hN0, rLVar_coe hN0, ← EReal.coe_add, ← EReal.coe_add, rsqrt_coe_pos hv,
    rsqrt_coe_pos hV, rstdR_eq hK hK0, lrstdR_eq hK hC hK0 hC0, lmuR_eq hK0' hC0', ← EReal.coe_one]
  simp only [← EReal.coe_mul, ← EReal.coe_add, ← EReal.coe_sub]
  congr 1
  ring

end Cert.Moments

end
-- ==== Proof.Bridge.lean ====
/-
  The kernel's flat positions against the reference's position pairs.

  The kernel sees a channel's 64 × 64 positions as one row of 4096, position `(h, w)` at `64 h + w`; the reference sums
  over the pairs. Renaming the positions by this bijection changes no moment, so the one-pass blend over the flat row at
  `64 h + w` is the one-pass blend over the pairs at `(h, w)`, which for real data is the two-pass blend
  (Proof/MomentsLaw.lean), with 4096 positions, 256 channels, 256 · 4096 entries in a sample and the stabiliser the
  positive real its word denotes (Proof/Consts.lean).
-/
import proofs.«153214_j1580547973998_2_alg».proof.Proof.MomentsLaw
import proofs.«153214_j1580547973998_2_alg».proof.Proof.Consts
import Idealize.ShloMosaic.Lib.ValueIdx

noncomputable section

open scoped BigOperators

namespace Cert.Bridge

open Idealize.ShloMosaic Idealize.ShloMosaic.ValueIdx Cert.Consts

/-- Position `(h, w)` of a 64 × 64 plane is position `64 h + w` of the flat row of 4096. -/
def posEquiv : Fin 64 × Fin 64 ≃ Fin 4096 where
  toFun p := ⟨p.1.val * 64 + p.2.val, by have := p.1.isLt; have := p.2.isLt; omega⟩
  invFun k := (⟨k.val / 64, by have := k.isLt; omega⟩, ⟨k.val % 64, by omega⟩)
  left_inv p := by
    have h1 := p.1.isLt
    have h2 := p.2.isLt
    refine Prod.ext (Fin.ext ?_) (Fin.ext ?_)
    · show (p.1.val * 64 + p.2.val) / 64 = p.1.val; omega
    · show (p.1.val * 64 + p.2.val) % 64 = p.2.val; omega
  right_inv k := Fin.ext (by show k.val / 64 * 64 + k.val % 64 = k.val; omega)

theorem posEquiv_val (h w : Fin 64) : (posEquiv (h, w)).val = h.val * 64 + w.val := rfl
theorem posEquiv_symm_fst_val (k : Fin 4096) : (posEquiv.symm k).1.val = k.val / 64 := rfl
theorem posEquiv_symm_snd_val (k : Fin 4096) : (posEquiv.symm k).2.val = k.val % 64 := rfl

/-- For real data: the one-pass blend of sample `n` over the flat positions, read at `64 h + w`, is the two-pass blend
    of the sample over the position pairs, read at `(h, w)`. -/
theorem flat_fused_eq_blended
    (X : (⟨4, ![32, 256, 64, 64]⟩ : Shape).Idx → EReal) (R G B : (⟨4, ![1, 256, 1, 1]⟩ : Shape).Idx → EReal)
    (hX : ∀ i, ∃ r : ℝ, X i = r) (hR : ∀ i, ∃ r : ℝ, R i = r) (hG : ∀ i, ∃ r : ℝ, G i = r) (hB : ∀ i, ∃ r : ℝ, B i = r)
    (n : Fin 32) (c : Fin 256) (h w : Fin 64) :
    Moments.fused w4096 w256 wEps wOne wZero
        (fun (c' : Fin 256) (k' : Fin 4096) => X (ix4 n c' (posEquiv.symm k').1 (posEquiv.symm k').2))
        (fun c' => R (ix4 (0 : Fin 1) c' (0 : Fin 1) (0 : Fin 1))) (fun c' => G (ix4 (0 : Fin 1) c' (0 : Fin 1) (0 : Fin 1)))
        (fun c' => B (ix4 (0 : Fin 1) c' (0 : Fin 1) (0 : Fin 1))) c (posEquiv (h, w))
      = Moments.blended wZero w4096 w2p20 wEps wOne
        (fun (c' : Fin 256) (p : Fin 64 × Fin 64) => X (ix4 n c' p.1 p.2))
        (fun c' => R (ix4 (0 : Fin 1) c' (0 : Fin 1) (0 : Fin 1))) (fun c' => G (ix4 (0 : Fin 1) c' (0 : Fin 1) (0 : Fin 1)))
        (fun c' => B (ix4 (0 : Fin 1) c' (0 : Fin 1) (0 : Fin 1))) c (h, w) := by
  choose xr hx using hX
  choose rr hr using hR
  choose gr hg using hG
  choose br hb using hB
  obtain ⟨e, he, hE⟩ := wEps_pos
  -- the flat row is the plane of pairs with its positions renamed
  have h1 := Moments.fused_reindex posEquiv.symm w4096 w256 wEps wOne wZero
    (fun (c' : Fin 256) (p : Fin 64 × Fin 64) => X (ix4 n c' p.1 p.2))
    (fun c' => R (ix4 (0 : Fin 1) c' (0 : Fin 1) (0 : Fin 1))) (fun c' => G (ix4 (0 : Fin 1) c' (0 : Fin 1) (0 : Fin 1)))
    (fun c' => B (ix4 (0 : Fin 1) c' (0 : Fin 1) (0 : Fin 1))) c (posEquiv (h, w))
  rw [Equiv.symm_apply_apply] at h1
  refine h1.trans ?_
  -- the data are real
  have hX' : (fun (c' : Fin 256) (p : Fin 64 × Fin 64) => X (ix4 n c' p.1 p.2))
      = fun c' p => ((xr (ix4 n c' p.1 p.2) : ℝ) : EReal) := by
    funext c' p; exact hx _
  have hR' : (fun (c' : Fin 256) => R (ix4 (0 : Fin 1) c' (0 : Fin 1) (0 : Fin 1)))
      = fun c' => ((rr (ix4 (0 : Fin 1) c' (0 : Fin 1) (0 : Fin 1)) : ℝ) : EReal) := by
    funext c'; exact hr _
  have hG' : (fun (c' : Fin 256) => G (ix4 (0 : Fin 1) c' (0 : Fin 1) (0 : Fin 1)))
      = fun c' => ((gr (ix4 (0 : Fin 1) c' (0 : Fin 1) (0 : Fin 1)) : ℝ) : EReal) := by
    funext c'; exact hg _
  have hB' : (fun (c' : Fin 256) => B (ix4 (0 : Fin 1) c' (0 : Fin 1) (0 : Fin 1)))
      = fun c' => ((br (ix4 (0 : Fin 1) c' (0 : Fin 1) (0 : Fin 1)) : ℝ) : EReal) := by
    funext c'; exact hb _
  rw [hX', hR', hG', hB', w4096_eq, w256_eq, w2p20_eq, wOne_eq, wZero_eq, hE]
  -- 4096 positions, 256 channels, a positive stabiliser
  exact Moments.fused_eq_blended (ι := Fin 256) (κ := Fin 64 × Fin 64) 4096 256 e
    (by norm_num [Fintype.card_prod]) (by norm_num) (by norm_num) (by norm_num) he
    (fun c' p => xr (ix4 n c' p.1 p.2)) (fun c' => rr (ix4 (0 : Fin 1) c' (0 : Fin 1) (0 : Fin 1)))
    (fun c' => gr (ix4 (0 : Fin 1) c' (0 : Fin 1) (0 : Fin 1)))
    (fun c' => br (ix4 (0 : Fin 1) c' (0 : Fin 1) (0 : Fin 1))) c (h, w)

end Cert.Bridge

end
-- ==== Proof.Equal.lean ====
/-
  The two programs' results are one function of real arguments.

  The kernel's program views the input as `[32, 256, 4096]`, so its result at `(n, c, h, w)` is the one-pass blend of
  sample `n` over the flat positions, read at channel `c`, flat position `64 h + w`, where flat position `k` of a channel
  holds the input's entry at `(k / 64, k mod 64)`. The reference's result there is the two-pass blend of the same sample
  over the position pairs. For real arguments they agree (Proof/Bridge.lean).
-/
import proofs.«153214_j1580547973998_2_alg».proof.Proof.KernelArray
import proofs.«153214_j1580547973998_2_alg».proof.Proof.RefPoint
import proofs.«153214_j1580547973998_2_alg».proof.Proof.Bridge

noncomputable section

open scoped BigOperators

namespace Cert.Equal

open Idealize.ShloMosaic Idealize.ShloMosaic.ValueIdx Cert.Consts Cert.Bridge
open Cert.KernelIdeal Cert.KernelIdeal.Gen

/-- The kernel program's result at `(n, c, h, w)`, in terms of the arguments' entries. -/
theorem result_apply (X : S32x256x64x64.Idx → EReal) (R G B : S1x256x1x1.Idx → EReal)
    (n : Fin 32) (c : Fin 256) (h w : Fin 64) :
    Cert.KernelIdeal.Whole.result X R G B (ix4 n c h w)
      = Moments.fused w4096 w256 wEps wOne wZero
          (fun (c' : Fin 256) (k' : Fin 4096) => X (ix4 n c' (posEquiv.symm k').1 (posEquiv.symm k').2))
          (fun c' => R (ix4 (0 : Fin 1) c' (0 : Fin 1) (0 : Fin 1))) (fun c' => G (ix4 (0 : Fin 1) c' (0 : Fin 1) (0 : Fin 1)))
          (fun c' => B (ix4 (0 : Fin 1) c' (0 : Fin 1) (0 : Fin 1))) c (posEquiv (h, w)) := by
  unfold Cert.KernelIdeal.Whole.result
  refine (shapeCast_apply _ _ (ix4 n c h w) (ix3 n c (posEquiv (h, w))) ?_).trans ?_
  · rw [Shape.rowMajor_val_three, Shape.rowMajor_val_four]
    show (n.val * 256 + c.val) * 4096 + (h.val * 64 + w.val) = ((n.val * 256 + c.val) * 64 + h.val) * 64 + w.val
    omega
  · show Cert.KernelIdeal.Whole.cell _ _ _ _ n c (posEquiv (h, w)) = _
    unfold Cert.KernelIdeal.Whole.cell
    have hX : (fun (c' : Fin 256) (k' : Fin 4096) =>
        shapeCast S32x256x4096 X shapeCasts_S32x256x64x64_S32x256x4096 (ix3 n c' k'))
          = fun c' k' => X (ix4 n c' (posEquiv.symm k').1 (posEquiv.symm k').2) := by
      funext c' k'
      refine shapeCast_apply _ _ _ _ ?_
      rw [Shape.rowMajor_val_four, Shape.rowMajor_val_three]
      show ((n.val * 256 + c'.val) * 64 + k'.val / 64) * 64 + k'.val % 64 = (n.val * 256 + c'.val) * 4096 + k'.val
      have := k'.isLt
      omega
    have hP : ∀ P : S1x256x1x1.Idx → EReal,
        (fun c' : Fin 256 => shapeCast S1x256x1 P shapeCasts_S1x256x1x1_S1x256x1 (ix3 (0 : Fin 1) c' (0 : Fin 1)))
          = fun c' => P (ix4 (0 : Fin 1) c' (0 : Fin 1) (0 : Fin 1)) := by
      intro P
      funext c'
      refine shapeCast_apply _ _ _ _ ?_
      rw [Shape.rowMajor_val_four, Shape.rowMajor_val_three]
      show ((0 * 256 + c'.val) * 1 + 0) * 1 + 0 = (0 * 256 + c'.val) * 1 + 0
      omega
    rw [hX, hP R, hP G, hP B]

/-- For real arguments the kernel program's result is the reference's. -/
theorem kernel_eq_reference (X : S32x256x64x64.Idx → EReal) (R G B : S1x256x1x1.Idx → EReal)
    (hX : ∀ i, ∃ r : ℝ, X i = r) (hR : ∀ i, ∃ r : ℝ, R i = r) (hG : ∀ i, ∃ r : ℝ, G i = r) (hB : ∀ i, ∃ r : ℝ, B i = r) :
    Cert.KernelIdeal.Whole.result X R G B = Cert.ReferenceIdeal.Read.val_main_v46 (F := Ideal) X R G B := by
  funext i
  obtain ⟨n, c, h, w, rfl⟩ : ∃ (n : Fin 32) (c : Fin 256) (h w : Fin 64), i = ix4 n c h w :=
    ⟨i 0, i 1, i 2, i 3, eq_ix4 i⟩
  rw [result_apply, Cert.ReferenceIdeal.Point.result_apply]
  exact flat_fused_eq_blended X R G B hX hR hG hB n c h w

end Cert.Equal

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/-
  From the precondition "every float input is finite" to real data.

  The precondition is the conjunction, over the four argument arrays, of `all (|a| < +inf)`. At the ideal values each
  conjunct says that no entry of its array is an infinity, so every entry of every argument is a real number.
-/
import proofs.«153214_j1580547973998_2_alg».proof.Pre_finite_inputs
import proofs.«153214_j1580547973998_2_alg».proof.Proof.Gen.Pre_finite_inputs
import proofs.«153214_j1580547973998_2_alg».proof.Proof.LibFiniteAll

noncomputable section

namespace Cert.FiniteInputs

open Idealize.ShloMosaic Cert.Pre_finite_inputs Cert.Pre_finite_inputs.Gen

/-- If the printed precondition is all ones at the ideal values, every entry of each of the four arguments is real. -/
theorem reals_of_pre (a0 : FVec Ideal S32x256x64x64 .f32) (a1 a2 a3 : FVec Ideal S1x256x1x1 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨fun i => FiniteAll.all_real a0 _ _ _ _ e0 i, fun i => FiniteAll.all_real a1 _ _ _ _ e1 i,
    fun i => FiniteAll.all_real a2 _ _ _ _ e2 i, fun i => FiniteAll.all_real a3 _ _ _ _ e3 i⟩

end Cert.FiniteInputs

end
-- ==== Proof.lean ====
/- The proof of `Cert.Claim`: the three frames, the (empty) idealization ledger, and the equality of the idealized
   kernel program and the idealized reference on the extended reals.

   Both programs compute, for every sample, the blend of its instance normalisation (per channel, over the 64 × 64
   positions) and its layer normalisation (over all channels and positions), scaled and shifted per channel. The kernel
   takes every variance in one pass (mean square less squared mean, clamped at zero), derives the sample's moments from
   the channels', and evaluates the blend as one multiply-add per entry; the reference takes every variance in two
   passes and evaluates the blend as written. With every input finite all moments are real numbers, the two variances
   agree and are nonnegative, and the two arrangements are one polynomial identity: Proof/MomentsLaw.lean. The kernel's
   result array as one function of the arguments is Proof/KernelArray.lean (over Proof/KernelPoint.lean), the reference's
   result at an index Proof/RefPoint.lean, the two joined in Proof/Equal.lean, and the precondition opened in
   Proof/FiniteInputs.lean. -/
import proofs.«153214_j1580547973998_2_alg».proof.Defs
import proofs.«153214_j1580547973998_2_alg».proof.Proof.Gen.Kernel
import proofs.«153214_j1580547973998_2_alg».proof.Proof.Gen.Kernel.Skeleton
import proofs.«153214_j1580547973998_2_alg».proof.Proof.Gen.Kernel.Launch
import proofs.«153214_j1580547973998_2_alg».proof.Proof.Gen.Kernel.Points
import proofs.«153214_j1580547973998_2_alg».proof.Proof.Gen.Kernel.Frame
import proofs.«153214_j1580547973998_2_alg».proof.Proof.Gen.KernelIdeal
import proofs.«153214_j1580547973998_2_alg».proof.Proof.Gen.KernelIdeal.Skeleton
import proofs.«153214_j1580547973998_2_alg».proof.Proof.Gen.KernelIdeal.Launch
import proofs.«153214_j1580547973998_2_alg».proof.Proof.Gen.KernelIdeal.Points
import proofs.«153214_j1580547973998_2_alg».proof.Proof.Gen.KernelIdeal.Frame
import proofs.«153214_j1580547973998_2_alg».proof.Proof.Gen.ReferenceIdeal
import proofs.«153214_j1580547973998_2_alg».proof.Proof.Gen.ReferenceIdeal.Run
import proofs.«153214_j1580547973998_2_alg».proof.Proof.Gen.ReferenceIdeal.Read
import proofs.«153214_j1580547973998_2_alg».proof.Proof.Gen.Pre_finite_inputs
import proofs.«153214_j1580547973998_2_alg».proof.Proof.Equal
import proofs.«153214_j1580547973998_2_alg».proof.Proof.FiniteInputs
import Idealize.ShloMosaic.Adequacy
import Idealize.ShloMosaic.Init

noncomputable section

namespace Cert.Proof

open Idealize.ShloMosaic Idealize.SL.Sem Cert.Kernel

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, both idealized programs end with the same result: the kernel program's
    result array is `Whole.result` of the arguments, the reference's is its last stage of them, and for finite
    arguments these are one function. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2]
  obtain ⟨h0, h1, h2, h3⟩ := Cert.FiniteInputs.reals_of_pre _ _ _ _ (hpre c)
  exact (Cert.Equal.kernel_eq_reference _ _ _ _ h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
